-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8192x4096 : Shape := ⟨3, ![2, 8192, 4096]⟩
abbrev S4096x1024 : Shape := ⟨2, ![4096, 1024]⟩
abbrev S4096 : Shape := ⟨1, ![4096]⟩
abbrev S_ : Shape := ⟨0, ![]⟩

class Facts : Prop where
  bcast_S_S2x8192x4096 : S_.BroadcastsInDim S2x8192x4096 (![] : Fin 0 → Fin S2x8192x4096.rank)
  reducesTo_S2x8192x4096_S_d0_1_2 : S2x8192x4096.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S2x8192x4096 .f32) (main_arg1 : FVec F S4096x1024 .f32) (main_arg2 : FVec F S4096 .f32) : IVec S_ 1 :=
  let main_v0 : FVec F S2x8192x4096 .f32 := Host.absf main_arg0
  let main_cst : FVec F S_ .f32 := constant S_ .f32 0x7F800000#32
  let main_v1 : FVec F S2x8192x4096 .f32 := broadcastInDim S2x8192x4096 ![] bcast_S_S2x8192x4096 main_cst
  let main_v2 : IVec S2x8192x4096 1 := cmpf .olt main_v0 main_v1
  let main_c : IVec S_ 1 := constantI S_ 1 1#1
  let main_v3 : IVec S_ 1 := (fun x v => Host.reduce IntOp.andi x v reducesTo_S2x8192x4096_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S2x8192x4096 : Shape := ⟨3, ![2, 8192, 4096]⟩
abbrev S4096x1024 : Shape := ⟨2, ![4096, 1024]⟩
abbrev S4096 : Shape := ⟨1, ![4096]⟩
abbrev S1024 : Shape := ⟨1, ![1024]⟩
abbrev S16384x4096 : Shape := ⟨2, ![16384, 4096]⟩
abbrev S_ : Shape := ⟨0, ![]⟩
abbrev S1024x1 : Shape := ⟨2, ![1024, 1]⟩
abbrev S16384x1024 : Shape := ⟨2, ![16384, 1024]⟩
abbrev S1024x4096 : Shape := ⟨2, ![1024, 4096]⟩
abbrev S1x4096 : Shape := ⟨2, ![1, 4096]⟩
abbrev S256x1024 : Shape := ⟨2, ![256, 1024]⟩
abbrev S256x4096 : Shape := ⟨2, ![256, 4096]⟩

abbrev nBuf : Space → Nat
  | .hbm => 17
  | .vmem => 6
  | .smem => 0
  | _ => 0

abbrev bufTy : (tb : Table) → Fin (tcTables nBuf tb) → BufTy
  | .hbm, ⟨0, _⟩ => ⟨S2x8192x4096, .f32⟩
  | .hbm, ⟨1, _⟩ => ⟨S4096x1024, .f32⟩
  | .hbm, ⟨2, _⟩ => ⟨S4096, .f32⟩
  | .hbm, ⟨3, _⟩ => ⟨S1024, .i32⟩
  | .hbm, ⟨4, _⟩ => ⟨S1024, .i1⟩
  | .hbm, ⟨5, _⟩ => ⟨S16384x4096, .f32⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S1024, .i32⟩
  | .hbm, ⟨10, _⟩ => ⟨S1024x1, .i32⟩
  | .hbm, ⟨11, _⟩ => ⟨S16384x1024, .f32⟩
  | .hbm, ⟨12, _⟩ => ⟨S1024x4096, .f32⟩
  | .hbm, ⟨13, _⟩ => ⟨S1024x4096, .bf16⟩
  | .hbm, ⟨14, _⟩ => ⟨S1x4096, .f32⟩
  | .hbm, ⟨15, _⟩ => ⟨S16384x4096, .f32⟩
  | .hbm, ⟨16, _⟩ => ⟨S2x8192x4096, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | _, _ => ⟨S2x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_c_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S2x8192x4096_S16384x4096 : S2x8192x4096.ShapeCasts S16384x4096
  bcast_S_S1024 : S_.BroadcastsInDim S1024 (![] : Fin 0 → Fin S1024.rank)
  bcast_S1024_S1024x1_0 : S1024.BroadcastsInDim S1024x1 (![0] : Fin 1 → Fin S1024x1.rank)
  transposes_S4096x1024_S1024x4096_1_0 : S4096x1024.Transposes [1, 0] S1024x4096
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  shapeCasts_S16384x4096_S2x8192x4096 : S16384x4096.ShapeCasts S2x8192x4096
  gather_S16384x4096_S1024x1_S16384x1024_0_1_n_n_1_1_163841_wf : GatherDims.WF S16384x4096 S1024x1 S16384x1024 [0] [1] [] [1] [] 1 ![16384, 1]
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def gather_S16384x4096_S1024x1_S16384x1024_0_1_n_n_1_1_163841 : GatherDims S16384x4096 S1024x1 S16384x1024 where
  offsetDims := [0]
  collapsedSliceDims := [1]
  operandBatchingDims := []
  startIndicesBatchingDims := []
  startIndexMap := [1]
  indexVectorDim := 1
  sliceSizes := ![16384, 1]
  wf := gather_S16384x4096_S1024x1_S16384x1024_0_1_n_n_1_1_163841_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_v5) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x8192x4096 : Shape := ⟨3, ![2, 8192, 4096]⟩
abbrev S4096x1024 : Shape := ⟨2, ![4096, 1024]⟩
abbrev S4096 : Shape := ⟨1, ![4096]⟩
abbrev S1024 : Shape := ⟨1, ![1024]⟩
abbrev S_ : Shape := ⟨0, ![]⟩
abbrev S1024x1 : Shape := ⟨2, ![1024, 1]⟩
abbrev S2x8192x1024 : Shape := ⟨3, ![2, 8192, 1024]⟩
abbrev S1x1x4096 : Shape := ⟨3, ![1, 1, 4096]⟩

abbrev nBuf : Space → Nat
  | .hbm => 17
  | .vmem => 0
  | .smem => 0
  | _ => 0

abbrev bufTy : (tb : Table) → Fin (tcTables nBuf tb) → BufTy
  | .hbm, ⟨0, _⟩ => ⟨S2x8192x4096, .f32⟩
  | .hbm, ⟨1, _⟩ => ⟨S4096x1024, .f32⟩
  | .hbm, ⟨2, _⟩ => ⟨S4096, .f32⟩
  | .hbm, ⟨3, _⟩ => ⟨S1024, .i32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S2x8192x1024, .f32⟩
  | .hbm, ⟨13, _⟩ => ⟨S2x8192x4096, .f32⟩
  | .hbm, ⟨14, _⟩ => ⟨S1x1x4096, .f32⟩
  | .hbm, ⟨15, _⟩ => ⟨S2x8192x4096, .f32⟩
  | .hbm, ⟨16, _⟩ => ⟨S2x8192x4096, .f32⟩
  | _, _ => ⟨S2x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_c_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  bcast_S4096_S1x1x4096_2 : S4096.BroadcastsInDim S1x1x4096 (![2] : Fin 1 → Fin S1x1x4096.rank)
  bcast_S1x1x4096_S2x8192x4096_0_1_2 : S1x1x4096.BroadcastsInDim S2x8192x4096 (![0, 1, 2] : Fin 3 → Fin S2x8192x4096.rank)
  gather_S2x8192x4096_S1024x1_S2x8192x1024_01_2_n_n_2_1_281921_wf : GatherDims.WF S2x8192x4096 S1024x1 S2x8192x1024 [0, 1] [2] [] [2] [] 1 ![2, 8192, 1]
  dot_S2x8192x1024_S4096x1024_S2x8192x4096_2_1_01_0_n_n_wf : DotDims.WF S2x8192x1024 S4096x1024 S2x8192x4096 [2] [1] [0, 1] [0] [] []

variable [Facts₀]

def gather_S2x8192x4096_S1024x1_S2x8192x1024_01_2_n_n_2_1_281921 : GatherDims S2x8192x4096 S1024x1 S2x8192x1024 where
  offsetDims := [0, 1]
  collapsedSliceDims := [2]
  operandBatchingDims := []
  startIndicesBatchingDims := []
  startIndexMap := [2]
  indexVectorDim := 1
  sliceSizes := ![2, 8192, 1]
  wf := gather_S2x8192x4096_S1024x1_S2x8192x1024_01_2_n_n_2_1_281921_wf
def dot_S2x8192x1024_S4096x1024_S2x8192x4096_2_1_01_0_n_n : DotDims S2x8192x1024 S4096x1024 S2x8192x4096 where
  lhsContracting := [2]
  rhsContracting := [1]
  lhsNonContracting := [0, 1]
  rhsNonContracting := [0]
  lhsBatch := []
  rhsBatch := []
  wf := dot_S2x8192x1024_S4096x1024_S2x8192x4096_2_1_01_0_n_n_wf

class Facts : Prop extends Facts₀ where

variable [Facts]
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRows.lean ====
/-
  Three layout operations read at an index, generic in the extents.

  A row vector [1, C] broadcast down R rows reads, at (r, c), the row at (0, c).  A vector [C] reshaped to
  the row [1, C] reads, at (0, c), the vector at c.  A block of rows cut out of a matrix [K, N] at row
  offset o reads, at (q, k), the matrix at (o + q, k).
-/
import Idealize.ShloMosaic.Lib.ValueIdx
import Idealize.ShloMosaic.Lib.Pipeline.Value

noncomputable section

namespace Cert.Lib.Rows

open Idealize.ShloMosaic Idealize.ShloMosaic.ValueIdx

variable {α : Type}

/-- A row [1, C] broadcast to [R, C], read at (r, c), is the row at (0, c). -/
theorem broadcastTo_row_apply {R C : Nat} (x : (⟨2, ![1, C]⟩ : Shape).Idx → α)
    (h : (⟨2, ![1, C]⟩ : Shape).Broadcasts ⟨2, ![R, C]⟩) (r : Fin R) (c : Fin C) :
    broadcastTo ⟨2, ![R, C]⟩ x h (ix2 r c) = x (ix2 0 c) :=
  broadcastTo_apply x h (ix2 r c) (ix2 0 c) (fun a => by
    match a with
    | ⟨0, _⟩ => show (0 : Nat) = if (1 : Nat) = 1 then 0 else r.val; rw [if_pos rfl]
    | ⟨1, _⟩ =>
      show c.val = if C = 1 then 0 else c.val
      by_cases hC : C = 1
      · rw [if_pos hC]; have := c.isLt; omega
      · rw [if_neg hC])

/-- A vector [C] reshaped to the row [1, C], read at (0, c), is the vector at c. -/
theorem shapeCast_vec_row_apply {C : Nat} (x : (⟨1, ![C]⟩ : Shape).Idx → α)
    (h : (⟨1, ![C]⟩ : Shape).ShapeCasts ⟨2, ![1, C]⟩) (c : Fin C) :
    shapeCast ⟨2, ![1, C]⟩ x h (ix2 0 c) = x (ix1 c) :=
  shapeCast_apply x h (ix2 0 c) (ix1 c) (by
    rw [Shape.rowMajor_val_one, Shape.rowMajor_val_two]
    show c.val = (0 : Nat) * C + c.val
    omega)

/-- Rows o … o + K' − 1 of a matrix [K, N], read at (q, k), are the matrix at (o + q, k). -/
theorem slice_rows_apply {K K' N o : Nat} (x : (⟨2, ![K, N]⟩ : Shape).Idx → α)
    (h : (⟨2, ![K, N]⟩ : Shape).Slices ![o, 0] ⟨2, ![K', N]⟩) (q : Fin K') (k : Fin N) (hq : o + q.val < K) :
    extractStridedSlice ⟨2, ![K', N]⟩ ![o, 0] x h (ix2 q k) = x (ix2 ⟨o + q.val, hq⟩ k) :=
  extractStridedSlice_apply ![o, 0] x h (ix2 q k) (ix2 ⟨o + q.val, hq⟩ k) (fun a => by
    match a with
    | ⟨0, _⟩ => rfl
    | ⟨1, _⟩ => show k.val = 0 + k.val; omega)

end Cert.Lib.Rows

end
-- ==== Proof.LibColGather.lean ====
/-
  A gather of columns read at an index, for any extents, entry type and index word width.

  `x[..., idx]` of a matrix [R, N], respectively of a three-axis array [A, B, N], at a column [E, 1] of start
  indices lowers to a gather whose offset axes are the leading ones, whose collapsed axis is the last, whose
  start index names the last axis, with slices of the full leading extents and one column.  Result element
  (r, e), respectively (a, b, e), is the operand at the same leading coordinates and at the column idx[e, 0]
  read as a signed integer and clamped into [0, N − 1], as the gather clamps every start index.
-/
import Idealize.ShloMosaic.Lib.ValueIdx

noncomputable section

namespace Cert.Lib.ColGather

open Idealize.ShloMosaic Idealize.ShloMosaic.ValueIdx

variable {α : Type}

/-- The column a start-index word names on an axis of extent N: the word read signed, clamped into [0, N − 1]. -/
def col (N : Nat) (hN : 0 < N) {w : Nat} (v : BitVec w) : Fin N := ⟨min v.toInt.toNat (N - 1), by omega⟩

/-- The dimension numbers of a column gather of a matrix [R, N] at start indices [E, 1]. -/
abbrev dims2 (R N E : Nat)
    (wf : GatherDims.WF ⟨2, ![R, N]⟩ ⟨2, ![E, 1]⟩ ⟨2, ![R, E]⟩ [0] [1] [] [1] [] 1 ![R, 1]) :
    GatherDims ⟨2, ![R, N]⟩ ⟨2, ![E, 1]⟩ ⟨2, ![R, E]⟩ where
  offsetDims := [0]
  collapsedSliceDims := [1]
  operandBatchingDims := []
  startIndicesBatchingDims := []
  startIndexMap := [1]
  indexVectorDim := 1
  sliceSizes := ![R, 1]
  wf := wf

/-- A column gather of a matrix read at (r, e): row r, the clamped column idx[e, 0]. -/
theorem gather_cols2_apply {R N E w : Nat} (hN : 0 < N)
    (wf : GatherDims.WF ⟨2, ![R, N]⟩ ⟨2, ![E, 1]⟩ ⟨2, ![R, E]⟩ [0] [1] [] [1] [] 1 ![R, 1])
    (x : (⟨2, ![R, N]⟩ : Shape).Idx → α) (idx : IVec ⟨2, ![E, 1]⟩ w) (r : Fin R) (e : Fin E) :
    Host.gather (dims2 R N E wf) x idx (ix2 r e) = x (ix2 r (col N hN (idx (ix2 e (0 : Fin 1))))) := by
  unfold Host.gather
  refine congrArg x (funext fun a => Fin.ext ?_)
  match a with
  | ⟨0, _⟩ =>
    show (dims2 R N E wf).start (ix2 r e) idx 0 + (dims2 R N E wf).batchCoord (ix2 r e) 0
      + (dims2 R N E wf).offCoord (ix2 r e) 0 = r.val
    have hs : (dims2 R N E wf).start (ix2 r e) idx 0 = 0 := by
      unfold GatherDims.start
      exact dif_neg (by simp)
    have ho : (dims2 R N E wf).offCoord (ix2 r e) 0 = r.val := by
      unfold GatherDims.offCoord
      rw [dif_pos (((dims2 R N E wf).mem_sKept 0).2 ⟨by simp, List.not_mem_nil⟩)]
      rfl
    rw [hs, GatherDims.batchCoord_eq_zero _ _ _ List.not_mem_nil, ho]
    omega
  | ⟨1, _⟩ =>
    show (dims2 R N E wf).start (ix2 r e) idx 1 + (dims2 R N E wf).batchCoord (ix2 r e) 1
      + (dims2 R N E wf).offCoord (ix2 r e) 1 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (dims2 R N E wf).startIndexMap from List.mem_singleton.mpr rfl)]
    have hsi : (dims2 R N E wf).siIdx (ix2 r e) ⟨List.idxOf (1 : Fin 2) (dims2 R N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The dimension numbers of a column gather of a three-axis array [A, B, N] at start indices [E, 1]. -/
abbrev dims3 (A B N E : Nat)
    (wf : GatherDims.WF ⟨3, ![A, B, N]⟩ ⟨2, ![E, 1]⟩ ⟨3, ![A, B, E]⟩ [0, 1] [2] [] [2] [] 1 ![A, B, 1]) :
    GatherDims ⟨3, ![A, B, N]⟩ ⟨2, ![E, 1]⟩ ⟨3, ![A, B, E]⟩ where
  offsetDims := [0, 1]
  collapsedSliceDims := [2]
  operandBatchingDims := []
  startIndicesBatchingDims := []
  startIndexMap := [2]
  indexVectorDim := 1
  sliceSizes := ![A, B, 1]
  wf := wf

/-- A column gather of a three-axis array read at (a, b, e): leading coordinates (a, b), the clamped column idx[e, 0]. -/
theorem gather_cols3_apply {A B N E w : Nat} (hN : 0 < N)
    (wf : GatherDims.WF ⟨3, ![A, B, N]⟩ ⟨2, ![E, 1]⟩ ⟨3, ![A, B, E]⟩ [0, 1] [2] [] [2] [] 1 ![A, B, 1])
    (x : (⟨3, ![A, B, N]⟩ : Shape).Idx → α) (idx : IVec ⟨2, ![E, 1]⟩ w) (a : Fin A) (b : Fin B) (e : Fin E) :
    Host.gather (dims3 A B N E wf) x idx (ix3 a b e) = x (ix3 a b (col N hN (idx (ix2 e (0 : Fin 1))))) := by
  unfold Host.gather
  refine congrArg x (funext fun d => Fin.ext ?_)
  match d with
  | ⟨0, _⟩ =>
    show (dims3 A B N E wf).start (ix3 a b e) idx 0 + (dims3 A B N E wf).batchCoord (ix3 a b e) 0
      + (dims3 A B N E wf).offCoord (ix3 a b e) 0 = a.val
    have hs : (dims3 A B N E wf).start (ix3 a b e) idx 0 = 0 := by
      unfold GatherDims.start
      exact dif_neg (by simp)
    have ho : (dims3 A B N E wf).offCoord (ix3 a b e) 0 = a.val := by
      unfold GatherDims.offCoord
      rw [dif_pos (((dims3 A B N E wf).mem_sKept 0).2 ⟨by simp, List.not_mem_nil⟩)]
      rfl
    rw [hs, GatherDims.batchCoord_eq_zero _ _ _ List.not_mem_nil, ho]
    omega
  | ⟨1, _⟩ =>
    show (dims3 A B N E wf).start (ix3 a b e) idx 1 + (dims3 A B N E wf).batchCoord (ix3 a b e) 1
      + (dims3 A B N E wf).offCoord (ix3 a b e) 1 = b.val
    have hs : (dims3 A B N E wf).start (ix3 a b e) idx 1 = 0 := by
      unfold GatherDims.start
      exact dif_neg (by simp)
    have ho : (dims3 A B N E wf).offCoord (ix3 a b e) 1 = b.val := by
      unfold GatherDims.offCoord
      rw [dif_pos (((dims3 A B N E wf).mem_sKept 1).2 ⟨by simp, List.not_mem_nil⟩)]
      rfl
    rw [hs, GatherDims.batchCoord_eq_zero _ _ _ List.not_mem_nil, ho]
    omega
  | ⟨2, _⟩ =>
    show (dims3 A B N E wf).start (ix3 a b e) idx 2 + (dims3 A B N E wf).batchCoord (ix3 a b e) 2
      + (dims3 A B N E wf).offCoord (ix3 a b e) 2 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (dims3 A B N E wf).startIndexMap from List.mem_singleton.mpr rfl)]
    have hsi : (dims3 A B N E wf).siIdx (ix3 a b e) ⟨List.idxOf (2 : Fin 3) (dims3 A B N E wf).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl

end Cert.Lib.ColGather

end
-- ==== Proof.KeptProduct.lean ====
/-
  The function both programs compute, and its form on flattened rows.

  With x : [2, 8192, 4096], a weight matrix v : [4096, 1024] stored "outputs × kept inputs", a bias [4096] and a
  table of 1024 column numbers, the result is

      out[b, s, n] = Σ_k x[b, s, c_k] · v[n, k] + bias[n],      c_k = the k-th table entry, read signed and
                                                                      clamped into [0, 4095]:

  a product with a structured-sparse weight matrix, written as a dense product over the kept input columns only.
  All values are extended reals and every operation is exact, so no order of summation is part of the statement.

  The kernel works on the rows ρ = 8192·b + s of the flattened input: with xg[ρ, k] the gathered columns,
  wt[k, n] the transposed weights and a bias row, its array is Σ_k xg[ρ, k] · wt[k, n] + row[0, n].
-/
import Idealize.ShloMosaic.Lib.ValueIdx
import Idealize.ShloMosaic.PureOps.Ideal
import proofs.«131424_j9878424780931_2_alg».proof.Proof.LibColGather

noncomputable section

namespace Cert.KeptProduct

open Idealize.ShloMosaic Idealize.ShloMosaic.ValueIdx Cert.Lib.ColGather

/-- The column of the 4096-wide axis a table word names. -/
abbrev column (v : BitVec 32) : Fin 4096 := col 4096 (by decide) v

/-- out[b, s, n] = Σ_k x[b, s, c_k] · v[n, k] + bias[n]. -/
def entry (tbl : IVec ⟨1, ![1024]⟩ 32) (x : FVec Ideal ⟨3, ![2, 8192, 4096]⟩ .f32) (v : FVec Ideal ⟨2, ![4096, 1024]⟩ .f32)
    (bias : FVec Ideal ⟨1, ![4096]⟩ .f32) (b : Fin 2) (s : Fin 8192) (n : Fin 4096) : EReal :=
  (∑ k : Fin 1024, x (ix3 b s (column (tbl (ix1 k)))) * v (ix2 n k)) + bias (ix1 n)

/-- The whole result array. -/
def result (tbl : IVec ⟨1, ![1024]⟩ 32) (x : FVec Ideal ⟨3, ![2, 8192, 4096]⟩ .f32) (v : FVec Ideal ⟨2, ![4096, 1024]⟩ .f32)
    (bias : FVec Ideal ⟨1, ![4096]⟩ .f32) : FVec Ideal ⟨3, ![2, 8192, 4096]⟩ .f32 :=
  fun i => entry tbl x v bias (i 0) (i 1) (i 2)

theorem result_apply (tbl : IVec ⟨1, ![1024]⟩ 32) (x : FVec Ideal ⟨3, ![2, 8192, 4096]⟩ .f32)
    (v : FVec Ideal ⟨2, ![4096, 1024]⟩ .f32) (bias : FVec Ideal ⟨1, ![4096]⟩ .f32) (b : Fin 2) (s : Fin 8192) (n : Fin 4096) :
    result tbl x v bias (ix3 b s n) = entry tbl x v bias b s n := rfl

/-- On rows (all 16384 of them, or a block of them): Σ_k xg[ρ, k] · wt[k, n] + row[0, n]. -/
def rowEntry {R : Nat} (xg : FVec Ideal ⟨2, ![R, 1024]⟩ .f32) (wt : FVec Ideal ⟨2, ![1024, 4096]⟩ .bf16)
    (row : FVec Ideal ⟨2, ![1, 4096]⟩ .f32) (ρ : Fin R) (n : Fin 4096) : EReal :=
  (∑ k : Fin 1024, xg (ix2 ρ k) * wt (ix2 k n)) + row (ix2 (0 : Fin 1) n)

/-- The flattened result array. -/
def rows (xg : FVec Ideal ⟨2, ![16384, 1024]⟩ .f32) (wt : FVec Ideal ⟨2, ![1024, 4096]⟩ .bf16)
    (row : FVec Ideal ⟨2, ![1, 4096]⟩ .f32) : FVec Ideal ⟨2, ![16384, 4096]⟩ .f32 :=
  fun i => rowEntry xg wt row (i 0) (i 1)

theorem rows_apply (xg : FVec Ideal ⟨2, ![16384, 1024]⟩ .f32) (wt : FVec Ideal ⟨2, ![1024, 4096]⟩ .bf16)
    (row : FVec Ideal ⟨2, ![1, 4096]⟩ .f32) (ρ : Fin 16384) (n : Fin 4096) :
    rows xg wt row (ix2 ρ n) = rowEntry xg wt row ρ n := rfl

/-- Two row entries agree when their factors and bias entries agree, factor by factor. -/
theorem rowEntry_congr {R R' : Nat} {xg : FVec Ideal ⟨2, ![R, 1024]⟩ .f32} {xg' : FVec Ideal ⟨2, ![R', 1024]⟩ .f32}
    {wt wt' : FVec Ideal ⟨2, ![1024, 4096]⟩ .bf16}
    {row row' : FVec Ideal ⟨2, ![1, 4096]⟩ .f32} {ρ : Fin R} {ρ' : Fin R'} {n n' : Fin 4096}
    (hx : ∀ k, xg (ix2 ρ k) = xg' (ix2 ρ' k)) (hw : ∀ k, wt (ix2 k n) = wt' (ix2 k n'))
    (hb : row (ix2 (0 : Fin 1) n) = row' (ix2 (0 : Fin 1) n')) :
    rowEntry xg wt row ρ n = rowEntry xg' wt' row' ρ' n' := by
  unfold rowEntry
  rw [hb]
  exact congrArg (· + row' (ix2 (0 : Fin 1) n')) (Finset.sum_congr rfl fun k _ => by rw [hx k, hw k])

end Cert.KeptProduct

end
-- ==== Proof.KernelBlock.lean ====
/-
  One grid point of the kernel, read at an index.

  At a grid point the body loads a block of 256 rows of the gathered input, the whole transposed weight matrix
  and the bias row, multiplies the first two into a zero accumulator, adds the bias row broadcast down the
  rows, and stores the sum.  At the ideal values the two narrowings to a shorter float format are the identity
  and the matrix product is the plain sum over the contraction index, so entry (p, q) of what is stored is
  Σ_k block[p, k] · weights[k, q] + bias[0, q].
-/
import proofs.«131424_j9878424780931_2_alg».proof.Proof.Gen.KernelIdeal.Skeleton
import proofs.«131424_j9878424780931_2_alg».proof.Proof.LibPlainDot
import proofs.«131424_j9878424780931_2_alg».proof.Proof.LibRows
import proofs.«131424_j9878424780931_2_alg».proof.Proof.KeptProduct
import Idealize.ShloMosaic.Lib.Pipeline.Value

noncomputable section

namespace Cert.KernelIdeal.Block

open Cert.KernelIdeal Cert.KernelIdeal.Gen Idealize.ShloMosaic Idealize.ShloMosaic.ValueIdx

/-- The body's matrix product has the plain dimension numbers: rows × contraction times contraction × columns. -/
theorem dot_plain : dot_S256x1024_S1024x4096_S256x4096_1_0_0_1_n_n = DotDims.plain 256 1024 4096 := rfl

/-- Entry (p, q) of the stored block: Σ_k x0[p, k] · x1[k, q] + x2[0, q]. -/
theorem stored_apply (x0 : FVec Ideal S256x1024 .f32) (x1 : FVec Ideal S1024x4096 .bf16) (x2 : FVec Ideal S1x4096 .f32)
    (p : Fin 256) (q : Fin 4096) :
    k0_pay1 (F := Ideal) x0 x1 x2 (ix2 p q) = Cert.KeptProduct.rowEntry x0 x1 x2 p q := by
  unfold k0_pay1 Cert.KeptProduct.rowEntry
  rw [addf_apply, shapeCast_self, shapeCast_self, shapeCast_self, dot_plain,
    Cert.Lib.PlainDot.matmul_plain_zero_apply, Cert.Lib.Rows.broadcastTo_row_apply]
  rfl

end Cert.KernelIdeal.Block

end
-- ==== Proof.KernelRows.lean ====
/-
  The kernel's output array: every block is a block of ONE function of the arrays the region finds.

  The grid has 64 points.  Point t reads rows 256·t … 256·t + 255 of the gathered input (all 1024 columns), the
  whole transposed weight matrix and the whole bias row, and writes rows 256·t … 256·t + 255 of the output (all
  4096 columns).  So what point t writes back is block t of the row product of the three arrays, the 64 blocks
  cover the 16384 rows, and the output array after the run is that row product.
-/
import proofs.«131424_j9878424780931_2_alg».proof.Proof.Gen.KernelIdeal.Frame
import proofs.«131424_j9878424780931_2_alg».proof.Proof.KernelBlock
import proofs.«131424_j9878424780931_2_alg».proof.Proof.KeptProduct
import Idealize.ShloMosaic.Lib.Pipeline.Value

set_option maxRecDepth 16384

noncomputable section

namespace Cert.KernelIdeal.Rows

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The block indices at point t: the input block and the output block are at row block t, column block 0; the
    weights and the bias row are whole. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The row product of the arrays as the region finds them. -/
abbrev found (c : Dev nD) : FVec Ideal S16384x4096 .f32 :=
  Cert.KeptProduct.rows (V m c main_v5) (V m c main_v7) (V m c main_v8)

/-- What point t writes back is block t of the row product. -/
theorem flushed_eq (c : Dev nD) (t : Fin cfg0.N) :
    (dats m 0 c).flushed 3 t = ((cfg0.win 3).blk t).view.read (Elt Ideal) (found m c) := by
  show (cfg0.win 3).cut (grid0.coords t) ((dats m 0 c).after 3 t) = _
  rw [after0_3]
  unfold out0_3
  rw [View.canon_unit_zero zero_offsets]
  simp only [View.ld_unit_zero (S := S256x1024) zero_offsets, View.ld_unit_zero (S := S1024x4096) zero_offsets,
    View.ld_unit_zero (S := S1x4096) zero_offsets]
  obtain ⟨e00, e01, e10, e11, e20, e21, e30, e31⟩ := index_facts t
  have ht : t.val < 64 := t.isLt
  funext j
  obtain ⟨p, q, rfl⟩ : ∃ (p : Fin 256) (q : Fin 4096), j = ix2 p q := ⟨j 0, j 1, eq_ix2 j⟩
  refine (Cert.KernelIdeal.Block.stored_apply (iblk m c 0 t) (iblk m c 1 t) (iblk m c 2 t) p q).trans ?_
  show _ = Cert.KeptProduct.rowEntry (V m c main_v5) (V m c main_v7) (V m c main_v8)
    ((((cfg0.win 3).blk t).view.emb (ix2 p q)) 0) ((((cfg0.win 3).blk t).view.emb (ix2 p q)) 1)
  refine Cert.KeptProduct.rowEntry_congr (fun k => ?_) (fun k => ?_) ?_
  · show V m c main_v5 (((cfg0.win 0).blk t).view.emb (ix2 p k)) = _
    refine congrArg (V m c main_v5) (funext fun a => Fin.ext ?_)
    match a with
    | ⟨0, _⟩ =>
      show win0_0.index t (0 : Fin 2) * 256 + 1 * p.val = win0_3.index t (0 : Fin 2) * 256 + 1 * p.val
      omega
    | ⟨1, _⟩ =>
      show win0_0.index t (1 : Fin 2) * 1024 + 1 * k.val = k.val
      omega
  · show V m c main_v7 (((cfg0.win 1).blk t).view.emb (ix2 k q)) = _
    refine congrArg (V m c main_v7) (funext fun a => Fin.ext ?_)
    match a with
    | ⟨0, _⟩ =>
      show win0_1.index t (0 : Fin 2) * 1024 + 1 * k.val = k.val
      omega
    | ⟨1, _⟩ =>
      show win0_1.index t (1 : Fin 2) * 4096 + 1 * q.val = win0_3.index t (1 : Fin 2) * 4096 + 1 * q.val
      omega
  · show V m c main_v8 (((cfg0.win 2).blk t).view.emb (ix2 (0 : Fin 1) q)) = _
    refine congrArg (V m c main_v8) (funext fun a => Fin.ext ?_)
    match a with
    | ⟨0, _⟩ =>
      show win0_2.index t (0 : Fin 2) * 1 + 1 * 0 = 0
      omega
    | ⟨1, _⟩ =>
      show win0_2.index t (1 : Fin 2) * 4096 + 1 * q.val = win0_3.index t (1 : Fin 2) * 4096 + 1 * q.val
      omega

/-- An index of the output array is in point t's block iff each coordinate is in the block's range on its axis. -/
theorem mem_block (t : Fin cfg0.N) (i : S16384x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v9).slice (win0_3.rect t)).set ↔ _
  rw [View.set_slice_whole, Rect.mem_set_unit]
  exact Iff.rfl

/-- Every row of the output is in the block of the point its row number divided by 256 names. -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : grid0.N = 64 := N_0
  let t : Fin cfg0.N := ⟨(i 0).val / 256, by show (i 0).val / 256 < grid0.N; omega⟩
  obtain ⟨-, -, -, -, -, -, e30, e31⟩ := index_facts t
  have e30' : win0_3.index t (0 : Fin 2) = (i 0).val / 256 := e30
  refine ⟨t, flush0_3 t, ?_⟩
  rw [mem_block]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 4096 ≤ (i 1).val ∧ (i 1).val < win0_3.index t (1 : Fin 2) * 4096 + 4096
    omega

/-- The output array after the run is the row product of the arrays the region finds. -/
theorem final (c : Dev nD) : (dats m 0 c).arrAt 3 cfg0.N = found m c :=
  (dats m 0 c).arrAt_eq_of_cover 3 (found m c) (fun t _ => flushed_eq m c t) (covered)

end Cert.KernelIdeal.Rows

end
-- ==== Proof.LibFlatRows.lean ====
/-
  Rank-3 arrays read at an index, for any extents and entry type: the leading two axes of [A, B, C] flattened to
  [N, C] with N = A·B (row a·B + b is (a, b)) and unflattened back; an array with ONE axis of extent one repeated
  along that axis ([A,1,C], [1,B,C], [A,B,1] to [A,B,C]); a middle unit axis added ([A,C] to [A,1,C]); and, at the
  ideal values, the sum over the middle axis of [A, B, C] read at (a, c) as the sum over b.
-/
import Idealize.ShloMosaic.Lib.Pipeline.Value
import Idealize.ShloMosaic.Lib.ValueIdx
import Idealize.ShloMosaic.PureOps.Ideal.Laws

noncomputable section

namespace Cert.Lib.FlatRows

open Idealize.ShloMosaic Idealize.ShloMosaic.ValueIdx

variable {α : Type} {A B C N : Nat}

/-- [A, B, C] flattened to [N, C]: row ρ = a·B + b reads (a, b). -/
theorem flatten_apply (x : (⟨3, ![A, B, C]⟩ : Shape).Idx → α) (h : (⟨3, ![A, B, C]⟩ : Shape).ShapeCasts ⟨2, ![N, C]⟩)
    (a : Fin A) (b : Fin B) (c : Fin C) (ρ : Fin N) (hρ : ρ.val = a.val * B + b.val) :
    shapeCast ⟨2, ![N, C]⟩ x h (ix2 ρ c) = x (ix3 a b c) :=
  shapeCast_apply x h _ _ (by
    rw [Shape.rowMajor_val_three, Shape.rowMajor_val_two]
    show (a.val * B + b.val) * C + c.val = ρ.val * C + c.val
    rw [hρ])

/-- [N, C] unflattened to [A, B, C]: (a, b) reads row ρ = a·B + b. -/
theorem unflatten_apply (x : (⟨2, ![N, C]⟩ : Shape).Idx → α) (h : (⟨2, ![N, C]⟩ : Shape).ShapeCasts ⟨3, ![A, B, C]⟩)
    (a : Fin A) (b : Fin B) (c : Fin C) (ρ : Fin N) (hρ : ρ.val = a.val * B + b.val) :
    shapeCast ⟨3, ![A, B, C]⟩ x h (ix3 a b c) = x (ix2 ρ c) :=
  shapeCast_apply x h _ _ (by
    rw [Shape.rowMajor_val_three, Shape.rowMajor_val_two]
    show ρ.val * C + c.val = (a.val * B + b.val) * C + c.val
    rw [hρ])

/-- [A, C] given a middle unit axis, [A, 1, C]: (a, u, c) reads (a, c). -/
theorem addMid_apply (x : (⟨2, ![A, C]⟩ : Shape).Idx → α) (h : (⟨2, ![A, C]⟩ : Shape).ShapeCasts ⟨3, ![A, 1, C]⟩)
    (a : Fin A) (u : Fin 1) (c : Fin C) :
    shapeCast ⟨3, ![A, 1, C]⟩ x h (ix3 a u c) = x (ix2 a c) :=
  shapeCast_apply x h _ _ (by
    have hu : u.val = 0 := by omega
    rw [Shape.rowMajor_val_three, Shape.rowMajor_val_two]
    show a.val * C + c.val = (a.val * 1 + u.val) * C + c.val
    rw [hu, Nat.mul_one, Nat.add_zero])

/-- [A, 1, C] repeated along its middle axis: (a, b, c) reads (a, 0, c). -/
theorem repeatMid_apply (x : (⟨3, ![A, 1, C]⟩ : Shape).Idx → α) (h : (⟨3, ![A, 1, C]⟩ : Shape).Broadcasts ⟨3, ![A, B, C]⟩)
    (a : Fin A) (b : Fin B) (c : Fin C) :
    broadcastTo ⟨3, ![A, B, C]⟩ x h (ix3 a b c) = x (ix3 a (0 : Fin 1) c) :=
  broadcastTo_apply x h _ _ fun d => by
    match d with
    | ⟨0, _⟩ => show a.val = if A = 1 then 0 else a.val; split <;> omega
    | ⟨1, _⟩ => show (0 : Nat) = if (1 : Nat) = 1 then 0 else b.val; rw [if_pos rfl]
    | ⟨2, _⟩ => show c.val = if C = 1 then 0 else c.val; split <;> omega

/-- [1, B, C] repeated along its leading axis: (a, b, c) reads (0, b, c). -/
theorem repeatLead_apply (x : (⟨3, ![1, B, C]⟩ : Shape).Idx → α) (h : (⟨3, ![1, B, C]⟩ : Shape).Broadcasts ⟨3, ![A, B, C]⟩)
    (a : Fin A) (b : Fin B) (c : Fin C) :
    broadcastTo ⟨3, ![A, B, C]⟩ x h (ix3 a b c) = x (ix3 (0 : Fin 1) b c) :=
  broadcastTo_apply x h _ _ fun d => by
    match d with
    | ⟨0, _⟩ => show (0 : Nat) = if (1 : Nat) = 1 then 0 else a.val; rw [if_pos rfl]
    | ⟨1, _⟩ => show b.val = if B = 1 then 0 else b.val; split <;> omega
    | ⟨2, _⟩ => show c.val = if C = 1 then 0 else c.val; split <;> omega

/-- [A, B, 1] repeated along its last axis: (a, b, c) reads (a, b, 0). -/
theorem repeatLast_apply (x : (⟨3, ![A, B, 1]⟩ : Shape).Idx → α) (h : (⟨3, ![A, B, 1]⟩ : Shape).Broadcasts ⟨3, ![A, B, C]⟩)
    (a : Fin A) (b : Fin B) (c : Fin C) :
    broadcastTo ⟨3, ![A, B, C]⟩ x h (ix3 a b c) = x (ix3 a b (0 : Fin 1)) :=
  broadcastTo_apply x h _ _ fun d => by
    match d with
    | ⟨0, _⟩ => show a.val = if A = 1 then 0 else a.val; split <;> omega
    | ⟨1, _⟩ => show b.val = if B = 1 then 0 else b.val; split <;> omega
    | ⟨2, _⟩ => show (0 : Nat) = if (1 : Nat) = 1 then 0 else c.val; rw [if_pos rfl]

/-- At the ideal values the sum over the middle axis of [A, B, C], read at (a, c), is the sum over b of (a, b, c). -/
theorem sumMid_apply {φ : FTy} (v : FVec Ideal ⟨3, ![A, B, C]⟩ φ) (acc : BitVec φ.bits)
    (h : (⟨3, ![A, B, C]⟩ : Shape).Reduces [(1 : Fin 3)] ⟨2, ![A, C]⟩) (hφ : FKind.Formats φ) (hacc : acc = FKind.add.neutral φ hφ)
    (a : Fin A) (c : Fin C) :
    multiReduction .add [(1 : Fin 3)] ⟨2, ![A, C]⟩ v acc h hφ hacc (ix2 a c) = ∑ b : Fin B, v (ix3 a b c) := by
  rw [Ideal.multiReduction_add_single]
  refine Finset.sum_congr rfl fun b _ => ?_
  exact congrArg v (funext fun d => Fin.ext (by match d with | ⟨0, _⟩ => rfl | ⟨1, _⟩ => rfl | ⟨2, _⟩ => rfl))

end Cert.Lib.FlatRows

end
-- ==== Proof.KernelWhole.lean ====
/-
  The kernel program as a whole: host operations, the region, the reshape after it.

  Before the region the host flattens x to rows ρ = 8192·b + s, gathers the table's columns of every row,
  transposes the weight matrix (the narrowing to a shorter float format is the identity at the ideal values) and
  reshapes the bias to a row; the start indices of the gather are the table itself, the wrap of negative
  indices having been folded to "never" in this program.  The region leaves the row product of these arrays,
  and the reshape after it reads row 8192·b + s at (b, s).  Index by index this is the kept-column product:

      Σ_k xflat[ρ, c_k] · vᵀ[k, n] + row[0, n]  =  Σ_k x[b, s, c_k] · v[n, k] + bias[n].
-/
import proofs.«131424_j9878424780931_2_alg».proof.Proof.KernelRows
import proofs.«131424_j9878424780931_2_alg».proof.Proof.LibFlatRows
import proofs.«131424_j9878424780931_2_alg».proof.Proof.LibRows
import proofs.«131424_j9878424780931_2_alg».proof.Proof.LibColGather
import Idealize.ShloMosaic.Lib.StableHlo.Run

set_option maxRecDepth 16384

noncomputable section

namespace Cert.KernelIdeal.Whole

open Cert.KernelIdeal Cert.KernelIdeal.Gen
open Idealize.ShloMosaic Idealize.ShloMosaic.TcCoe Idealize.ShloMosaic.ValueIdx Idealize.SL.Sem Idealize.ShloMosaic.StableHlo

/-- The table as the constant's buffer holds it. -/
abbrev table : IVec S1024 32 := fun i => lit0 (S1024.rowMajor i)

/-- The start indices of the gather, as a column: the table, the branch that would add the axis length never taken. -/
def startIndices : IVec S1024x1 32 :=
  broadcastInDim S1024x1 ![0] bcast_S1024_S1024x1_0
    (select (constantI S1024 1 0#1) (addi table (broadcastInDim S1024 ![] bcast_S_S1024 (constantI S_ 32 4096#32))) table)

/-- The start index of column k is the k-th table entry. -/
theorem startIndices_apply (k : Fin 1024) : startIndices (ix2 k (0 : Fin 1)) = table (ix1 k) := by
  unfold startIndices
  rw [broadcastInDim_apply ![0] bcast_S1024_S1024x1_0 _ (ix2 k (0 : Fin 1)) (ix1 k)
    (fun a => by match a with | ⟨0, _⟩ => rfl)]
  show Scalar.select 0#1 _ (table (ix1 k)) = table (ix1 k)
  exact if_neg (by decide)

/-- The gather is the column gather of a matrix. -/
theorem gather_cols : gather_S16384x4096_S1024x1_S16384x1024_0_1_n_n_1_1_163841
    = Cert.Lib.ColGather.dims2 16384 4096 1024 Gen.gather_S16384x4096_S1024x1_S16384x1024_0_1_n_n_1_1_163841_wf := rfl

/-- The three arrays the region works on, as functions of the argument arrays. -/
def gathered (x : FVec Ideal S2x8192x4096 .f32) : FVec Ideal S16384x1024 .f32 :=
  Host.gather gather_S16384x4096_S1024x1_S16384x1024_0_1_n_n_1_1_163841
    (shapeCast S16384x4096 x shapeCasts_S2x8192x4096_S16384x4096) startIndices
def weightsT (v : FVec Ideal S4096x1024 .f32) : FVec Ideal S1024x4096 .bf16 :=
  truncf .bf16 (transpose S1024x4096 [1, 0] v transposes_S4096x1024_S1024x4096_1_0) bitsLt_bf16_f32
def biasRow (bias : FVec Ideal S4096 .f32) : FVec Ideal S1x4096 .f32 :=
  shapeCast S1x4096 bias shapeCasts_S4096_S1x4096

/-- The row product of those three arrays, unflattened, is the kept-column product of the arguments. -/
theorem unflattened_eq (x : FVec Ideal S2x8192x4096 .f32) (v : FVec Ideal S4096x1024 .f32) (bias : FVec Ideal S4096 .f32) :
    shapeCast S2x8192x4096 (Cert.KeptProduct.rows (gathered x) (weightsT v) (biasRow bias)) shapeCasts_S16384x4096_S2x8192x4096
      = Cert.KeptProduct.result table x v bias := by
  funext i
  obtain ⟨b, s, n, rfl⟩ : ∃ (b : Fin 2) (s : Fin 8192) (n : Fin 4096), i = ix3 b s n := ⟨i 0, i 1, i 2, eq_ix3 i⟩
  have hρ : b.val * 8192 + s.val < 16384 := by have := b.isLt; have := s.isLt; omega
  rw [Cert.Lib.FlatRows.unflatten_apply _ _ b s n ⟨b.val * 8192 + s.val, hρ⟩ rfl, Cert.KeptProduct.rows_apply,
    Cert.KeptProduct.result_apply]
  unfold Cert.KeptProduct.rowEntry Cert.KeptProduct.entry gathered weightsT biasRow
  rw [Cert.Lib.Rows.shapeCast_vec_row_apply]
  refine congrArg (· + bias (ix1 n)) (Finset.sum_congr rfl fun k _ => ?_)
  rw [gather_cols, Cert.Lib.ColGather.gather_cols2_apply (by decide), startIndices_apply,
    Cert.Lib.FlatRows.flatten_apply _ _ b s _ ⟨b.val * 8192 + s.val, hρ⟩ rfl, truncf_apply,
    transpose_apply [1, 0] v transposes_S4096x1024_S1024x4096_1_0 (ix2 k n) (ix2 n k)
      (fun a => by match a with | ⟨0, _⟩ => rfl | ⟨1, _⟩ => rfl)]

variable (m : (ℓ : Loc nD τ sig) → Buf (Elt Ideal) ℓ) (ρ : Dev nD → PrngReg)

/-- What the region finds in its three input arrays. -/
theorem found_gathered (c : Dev nD) :
    (V m c main_v5 : S16384x1024.Idx → EReal) = gathered (m ((c : Thread nD τ).loc main_arg0)) := by
  show StableHlo.after hostOps0 (fun b => m (c, b)) (Proc.devRef .tc main_v5) = _
  after_results
  rfl
theorem found_weightsT (c : Dev nD) :
    (V m c main_v7 : S1024x4096.Idx → EReal) = weightsT (m ((c : Thread nD τ).loc main_arg1)) := by
  show StableHlo.after hostOps0 (fun b => m (c, b)) (Proc.devRef .tc main_v7) = _
  after_results
  rfl
theorem found_biasRow (c : Dev nD) :
    (V m c main_v8 : S1x4096.Idx → EReal) = biasRow (m ((c : Thread nD τ).loc main_arg2)) := by
  show StableHlo.after hostOps0 (fun b => m (c, b)) (Proc.devRef .tc main_v8) = _
  after_results
  rfl

/-- The program's result after the reshape that follows the region. -/
theorem tail_eq (c : Dev nD) :
    Pipeline.afterTail₀ cfgs (dats m) 0 (V0 m) [hostOps1] c main_v10
      = Cert.KeptProduct.result table (m ((c : Thread nD τ).loc main_arg0)) (m ((c : Thread nD τ).loc main_arg1))
          (m ((c : Thread nD τ).loc main_arg2)) := by
  have h1 : Pipeline.afterTail₀ cfgs (dats m) 0 (V0 m) [hostOps1] c main_v10
      = shapeCast S2x8192x4096
          (Pipeline.withArrays (cfgs 0).spec c (V0 m c) (fun w => (dats m 0 c).arrAt w (cfgs 0).N) (Proc.devRef .tc main_v9))
          shapeCasts_S16384x4096_S2x8192x4096 := by
    unfold Pipeline.afterTail₀
    show StableHlo.after hostOps1 _ (Proc.devRef .tc main_v10) = _
    after_results
    rfl
  have h2 : Pipeline.withArrays (cfgs 0).spec c (V0 m c) (fun w => (dats m 0 c).arrAt w (cfgs 0).N) (Proc.devRef .tc main_v9)
      = Cert.KeptProduct.rows (gathered (m ((c : Thread nD τ).loc main_arg0))) (weightsT (m ((c : Thread nD τ).loc main_arg1)))
          (biasRow (m ((c : Thread nD τ).loc main_arg2))) := by
    refine ((Pipeline.withArrays_arr spec0 launch0.win.arr_inj c _ _ 3).trans (Cert.KernelIdeal.Rows.final m c)).trans ?_
    unfold Cert.KernelIdeal.Rows.found
    rw [found_gathered, found_weightsT, found_biasRow]
  rw [h1, h2]
  exact unflattened_eq _ _ _

/-- Every weakly fair execution of the kernel program terminates with its result at the kept-column product of the
    argument arrays, and the arguments unchanged. -/
theorem run : θ_run defs (onTc (τ := τ) (main (F := Ideal))) ⟨m, fun _ => 0, ρ⟩ fun r => ∀ c : Dev nD,
      r.2.mem ((c.tc : Thread nD τ).loc main_v10)
        = Cert.KeptProduct.result table (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v10 (Pipeline.mem_restRefs_of main_v10 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.ReferenceRun.lean ====
/-
  The reference program's run.

  The reference is fourteen host operations in a straight line: the table of kept columns, the wrap of its
  negative entries, the gather of those columns of x, one contraction with the weight matrix, and the bias
  broadcast and added.  Every weakly fair execution terminates with the result buffer at the operations'
  composed term of the three argument arrays, and the arguments unchanged.
-/
import proofs.«131424_j9878424780931_2_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The program's fourteen operations, in order. -/
abbrev ops : List (HloOp τ sig (Elt F)) :=
  [
    nullary main_c (fun i => lit0 (S1024.rowMajor i)),
    nullary main_c_0 (constantI S_ 32 0#32),
    unary main_c_0 main_v0 (broadcastInDim S1024 ![] bcast_S_S1024 : (⟨S_, .i32⟩ : BufTy).Contents (Elt F) → (⟨S1024, .i32⟩ : BufTy).Contents (Elt F)),
    binary main_c main_v0 main_v1 (cmpi .slt : (⟨S1024, .i32⟩ : BufTy).Contents (Elt F) → (⟨S1024, .i32⟩ : BufTy).Contents (Elt F) → (⟨S1024, .i1⟩ : BufTy).Contents (Elt F)),
    nullary main_c_1 (constantI S_ 32 4096#32),
    unary main_c_1 main_v2 (broadcastInDim S1024 ![] bcast_S_S1024 : (⟨S_, .i32⟩ : BufTy).Contents (Elt F) → (⟨S1024, .i32⟩ : BufTy).Contents (Elt F)),
    binary main_c main_v2 main_v3 (addi : (⟨S1024, .i32⟩ : BufTy).Contents (Elt F) → (⟨S1024, .i32⟩ : BufTy).Contents (Elt F) → (⟨S1024, .i32⟩ : BufTy).Contents (Elt F)),
    ternary main_v1 main_v3 main_c main_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v4 main_v5 (broadcastInDim S1024x1 ![0] bcast_S1024_S1024x1_0 : (⟨S1024, .i32⟩ : BufTy).Contents (Elt F) → (⟨S1024x1, .i32⟩ : BufTy).Contents (Elt F)),
    binary main_arg0 main_v5 main_v6 ((fun x i => Host.gather gather_S2x8192x4096_S1024x1_S2x8192x1024_01_2_n_n_2_1_281921 x i) : (⟨S2x8192x4096, .f32⟩ : BufTy).Contents (Elt F) → (⟨S1024x1, .i32⟩ : BufTy).Contents (Elt F) → (⟨S2x8192x1024, .f32⟩ : BufTy).Contents (Elt F)),
    binary main_v6 main_arg1 main_v7 ((fun l r => Host.dotGeneral dot_S2x8192x1024_S4096x1024_S2x8192x4096_2_1_01_0_n_n none l r) : (⟨S2x8192x1024, .f32⟩ : BufTy).Contents (Elt F) → (⟨S4096x1024, .f32⟩ : BufTy).Contents (Elt F) → (⟨S2x8192x4096, .f32⟩ : BufTy).Contents (Elt F)),
    unary main_arg2 main_v8 (broadcastInDim S1x1x4096 ![2] bcast_S4096_S1x1x4096_2 : (⟨S4096, .f32⟩ : BufTy).Contents (Elt F) → (⟨S1x1x4096, .f32⟩ : BufTy).Contents (Elt F)),
    unary main_v8 main_v9 (broadcastInDim S2x8192x4096 ![0, 1, 2] bcast_S1x1x4096_S2x8192x4096_0_1_2 : (⟨S1x1x4096, .f32⟩ : BufTy).Contents (Elt F) → (⟨S2x8192x4096, .f32⟩ : BufTy).Contents (Elt F)),
    binary main_v7 main_v9 main_v10 (addf : (⟨S2x8192x4096, .f32⟩ : BufTy).Contents (Elt F) → (⟨S2x8192x4096, .f32⟩ : BufTy).Contents (Elt F) → (⟨S2x8192x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., binary_bufs_sub ..⟩

/-- The table as the constant's buffer holds it. -/
abbrev table : IVec S1024 32 := fun i => lit0 (S1024.rowMajor i)

/-- The start indices of the gather: the table with the axis length 4096 added to its negative entries, as a column. -/
def startIndices : IVec S1024x1 32 :=
  broadcastInDim S1024x1 ![0] bcast_S1024_S1024x1_0
    (select (cmpi .slt table (broadcastInDim S1024 ![] bcast_S_S1024 (constantI S_ 32 0#32)))
      (addi table (broadcastInDim S1024 ![] bcast_S_S1024 (constantI S_ 32 4096#32))) table)

/-- The operations' composed term: gather the columns, contract with the weights, add the broadcast bias. -/
def term (x : FVec F S2x8192x4096 .f32) (v : FVec F S4096x1024 .f32) (bias : FVec F S4096 .f32) : FVec F S2x8192x4096 .f32 :=
  addf (Host.dotGeneral dot_S2x8192x1024_S4096x1024_S2x8192x4096_2_1_01_0_n_n none
      (Host.gather gather_S2x8192x4096_S1024x1_S2x8192x1024_01_2_n_n_2_1_281921 x startIndices) v)
    (broadcastInDim S2x8192x4096 ![0, 1, 2] bcast_S1x1x4096_S2x8192x4096_0_1_2
      (broadcastInDim S1x1x4096 ![2] bcast_S4096_S1x1x4096_2 bias))

/-- On every device, from any memory with zero counters: every weakly fair execution of the reference terminates
    with its result at `term` of the argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v10)
        = term (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v10).trans (by after_results; rfl),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.HostRun

end
-- ==== Proof.KeepTable.lean ====
/-
  The table of kept columns.

  Both programs hold a constant of 1024 words: the numbers of the input columns that are kept, in the order of
  the weight matrix's contraction axis.  Which columns they are does not matter to the equivalence.  Two facts
  about the table are all the proof uses, and both are checked entry by entry: the two printed tables are one
  table, and no entry is negative when read as a signed word, so that the wrap of negative indices (add the
  axis length to a negative index) leaves every entry as it is.
-/
import proofs.«131424_j9878424780931_2_alg».proof.KernelIdeal
import proofs.«131424_j9878424780931_2_alg».proof.ReferenceIdeal

namespace Cert.KeepTable

/-- The kernel program's table and the reference's are the same 1024 words. -/
theorem tables_agree : ∀ k : Fin 1024, Cert.KernelIdeal.lit0 k = Cert.ReferenceIdeal.lit0 k := by
  decide +kernel

/-- Read as signed words, no entry of the table is below zero. -/
theorem not_negative : ∀ k : Fin 1024, (Cert.ReferenceIdeal.lit0 k).slt 0#32 = false := by
  decide +kernel

end Cert.KeepTable
-- ==== Proof.ReferenceValue.lean ====
/-
  The reference's term is the kept-column product.

  Index by index: the bias, broadcast first to [1, 1, 4096] and then over the leading axes, contributes bias[n];
  the contraction over the last axis of the gathered input and the last axis of the weight matrix is
  Σ_k gathered[b, s, k] · v[n, k]; the gathered entry is x[b, s, c_k] with c_k the clamped start index; and the
  start index is the table entry itself, because the wrap of negative indices acts only on negative entries and
  the table has none.
-/
import proofs.«131424_j9878424780931_2_alg».proof.Proof.ReferenceRun
import proofs.«131424_j9878424780931_2_alg».proof.Proof.KeptProduct
import proofs.«131424_j9878424780931_2_alg».proof.Proof.KeepTable
import proofs.«131424_j9878424780931_2_alg».proof.Proof.LibColGather
import Idealize.ShloMosaic.Lib.Pipeline.Value
import Idealize.ShloMosaic.PureOps.Ideal.Laws

noncomputable section

namespace Cert.ReferenceIdeal.HostValue

open Cert.ReferenceIdeal Cert.ReferenceIdeal.Gen Cert.ReferenceIdeal.HostRun
open Idealize.ShloMosaic Idealize.ShloMosaic.ValueIdx

/-- The contraction's dimension numbers: the input's last axis against the weight matrix's last axis. -/
abbrev contraction := dot_S2x8192x1024_S4096x1024_S2x8192x4096_2_1_01_0_n_n

/-- The gather is the column gather of a three-axis array. -/
theorem gather_cols : gather_S2x8192x4096_S1024x1_S2x8192x1024_01_2_n_n_2_1_281921
    = Cert.Lib.ColGather.dims3 2 8192 4096 1024 Gen.gather_S2x8192x4096_S1024x1_S2x8192x1024_01_2_n_n_2_1_281921_wf := rfl

/-- The start index of column k is the k-th table entry: the entry is not negative, so the wrap keeps it. -/
theorem startIndices_apply (k : Fin 1024) : startIndices (ix2 k (0 : Fin 1)) = table (ix1 k) := by
  have hneg : IntOp.cmpi .slt (table (ix1 k)) 0#32 = 0#1 :=
    (congrArg BitVec.ofBool (Cert.KeepTable.not_negative (S1024.rowMajor (ix1 k)))).trans rfl
  unfold startIndices
  rw [broadcastInDim_apply ![0] bcast_S1024_S1024x1_0 _ (ix2 k (0 : Fin 1)) (ix1 k)
    (fun a => by match a with | ⟨0, _⟩ => rfl)]
  show Scalar.select (IntOp.cmpi .slt (table (ix1 k)) 0#32) _ (table (ix1 k)) = table (ix1 k)
  rw [hneg]
  exact if_neg (by decide)

/-- The input's index at output (b, s, n) and contraction position k is (b, s, k). -/
theorem lhsIdx_apply (b : Fin 2) (s : Fin 8192) (n : Fin 4096) (k : Fin 1024) :
    contraction.lhsIdx (ix3 b s n) ((contrEquiv1 contraction 1024 rfl rfl).symm k) = ix3 b s k := by
  have hk := contrEquiv1_symm_val contraction 1024 rfl rfl k
  exact funext fun a => Fin.ext (by
    match a with
    | ⟨0, _⟩ => rfl
    | ⟨1, _⟩ => rfl
    | ⟨2, _⟩ => exact (contraction.lhsIdx_val_of_single rfl _ _).trans hk)

/-- The weight matrix's index there is (n, k). -/
theorem rhsIdx_apply (b : Fin 2) (s : Fin 8192) (n : Fin 4096) (k : Fin 1024) :
    contraction.rhsIdx (ix3 b s n) ((contrEquiv1 contraction 1024 rfl rfl).symm k) = ix2 n k := by
  have hk := contrEquiv1_symm_val contraction 1024 rfl rfl k
  exact funext fun a => Fin.ext (by
    match a with
    | ⟨0, _⟩ => rfl
    | ⟨1, _⟩ => exact (contraction.rhsIdx_val_of_single rfl _ _).trans hk)

/-- The reference's term, at the ideal values, is the kept-column product over its own table. -/
theorem term_eq (x : FVec Ideal S2x8192x4096 .f32) (v : FVec Ideal S4096x1024 .f32) (bias : FVec Ideal S4096 .f32) :
    term (F := Ideal) x v bias = Cert.KeptProduct.result table x v bias := by
  funext i
  obtain ⟨b, s, n, rfl⟩ : ∃ (b : Fin 2) (s : Fin 8192) (n : Fin 4096), i = ix3 b s n := ⟨i 0, i 1, i 2, eq_ix3 i⟩
  rw [Cert.KeptProduct.result_apply]
  unfold term Cert.KeptProduct.entry
  rw [addf_apply,
    broadcastInDim_apply ![0, 1, 2] bcast_S1x1x4096_S2x8192x4096_0_1_2 _ (ix3 b s n) (ix3 (0 : Fin 1) (0 : Fin 1) n)
      (fun a => by match a with | ⟨0, _⟩ => rfl | ⟨1, _⟩ => rfl | ⟨2, _⟩ => rfl),
    broadcastInDim_apply ![2] bcast_S4096_S1x1x4096_2 _ (ix3 (0 : Fin 1) (0 : Fin 1) n) (ix1 n)
      (fun a => by match a with | ⟨0, _⟩ => rfl)]
  refine congrArg (· + bias (ix1 n)) ?_
  show FloatOps.dotGeneral contraction none _ _ v (ix3 b s n) = _
  rw [Ideal.dotGeneral_apply, ← Equiv.sum_comp (contrEquiv1 contraction 1024 rfl rfl).symm]
  refine Finset.sum_congr rfl fun k _ => ?_
  rw [lhsIdx_apply, rhsIdx_apply, gather_cols, Cert.Lib.ColGather.gather_cols3_apply (by decide), startIndices_apply]

end Cert.ReferenceIdeal.HostValue

end
-- ==== Proof.lean ====
/-
  The kernel computes a product with a sparse weight matrix as a dense product over a table of kept input columns
  only, and the reference computes the same by one contraction (which columns the table lists plays no part):

      out[b, s, n] = Σ_k x[b, s, c_k] · v[n, k] + bias[n],     c_k the k-th entry of a table of 1024 columns.

  The kernel program flattens x to 16384 rows, gathers the table's columns of every row on the host, and runs a
  grid of 64 points, each multiplying a block of 256 gathered rows with the transposed weight matrix and adding
  the bias row; the reference gathers the same columns of the three-axis array and contracts its last axis with
  the weight matrix's last axis.  At the ideal values — floats extended reals, every operation exact, a change of
  float format the identity — both results are the sum above, entry by entry.  The one thing the two index
  computations differ in is the wrap of negative indices (add 4096 to a negative table entry), which only the
  reference applies; the table has no negative entry, so both gather the same columns.  The sums are over the
  same 1024 terms in either program, so no law of the extended reals beyond reading each operation at an index
  is used, and the precondition (finite inputs) is not needed for the values.

  The frames of the two kernel programs are the generated ones; the reference's frame is its run with the result
  dropped; the kernel's idealization rewrote nothing, so there is nothing to preserve.
-/
import proofs.«131424_j9878424780931_2_alg».proof.Defs
import proofs.«131424_j9878424780931_2_alg».proof.Proof.Gen.Kernel
import proofs.«131424_j9878424780931_2_alg».proof.Proof.Gen.Kernel.Frame
import proofs.«131424_j9878424780931_2_alg».proof.Proof.Gen.KernelIdeal
import proofs.«131424_j9878424780931_2_alg».proof.Proof.Gen.KernelIdeal.Frame
import proofs.«131424_j9878424780931_2_alg».proof.Proof.Gen.ReferenceIdeal
import proofs.«131424_j9878424780931_2_alg».proof.Proof.Gen.Pre_finite_inputs
import proofs.«131424_j9878424780931_2_alg».proof.Proof.KernelWhole
import proofs.«131424_j9878424780931_2_alg».proof.Proof.ReferenceValue
import proofs.«131424_j9878424780931_2_alg».proof.Proof.KeepTable
import Idealize.ShloMosaic.Adequacy
import Idealize.ShloMosaic.Init

noncomputable section

namespace Cert.Proof

open Idealize.ShloMosaic Idealize.SL.Sem

/-- The two programs' tables, as their constants' buffers hold them, are one table. -/
theorem table_eq : Cert.ReferenceIdeal.HostRun.table = Cert.KernelIdeal.Whole.table :=
  funext fun i => (Cert.KeepTable.tables_agree _).symm

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.HostRun.run (F := Ideal) m ρ)

/-- The idealization rewrote no operation. -/
theorem preserves : Cert.preserves_Kernel_KernelIdeal := trivial

/-- From memories agreeing on the arguments both programs end with the kept-column product of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.HostRun.run (F := Ideal) m' ρ')
  rw [Cert.ReferenceIdeal.HostValue.term_eq, table_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
